-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S100000x1 : Shape := ⟨2, ![100000, 1]⟩
abbrev S1x64 : Shape := ⟨2, ![1, 64]⟩
abbrev S64x100000 : Shape := ⟨2, ![64, 100000]⟩

abbrev nBuf : Space → Nat
  | .hbm => 89
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x1, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S1600000x1, .f32⟩
  | .hbm, ⟨75, _⟩ => ⟨S1600000x64, .f32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S100000x1, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S1x64, .f32⟩
  | .hbm, ⟨87, _⟩ => ⟨S100000x64, .f32⟩
  | .hbm, ⟨88, _⟩ => ⟨S64x100000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  transposes_S100000x64_S64x100000_1_0 : S100000x64.Transposes [1, 0] S64x100000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S64x100000 : Shape := ⟨2, ![64, 100000]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S1600000x1, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S100000, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S64x100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_18 : Ref sig .tc := ⟨.hbm, 132, rfl⟩
abbrev main_v100 : Ref sig .tc := ⟨.hbm, 133, rfl⟩
abbrev main_v101 : Ref sig .tc := ⟨.hbm, 134, rfl⟩
abbrev main_cst_19 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S100000x64_S64x100000_1_0 : S100000x64.Transposes [1, 0] S64x100000
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RunAll.lean ====
/-
  The idealized kernel's whole run, read at every buffer.

  @main is four stretches of host operations around three kernel regions.  The buffer contents at each boundary are a
  fold from the launch memory: a stretch applies its operations, a region replaces its output array by what its
  write-backs leave and keeps every other buffer.  Every weakly fair execution terminates, and in the final memory each
  buffer that lives for the whole program holds the last boundary's contents.  The value of the result and the
  unchanged arguments are both read off this one statement.
-/
import proofs.«103817_j9431748182670_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and the final memory holds, at every buffer
    that is not scoped to a region, the contents the last boundary's fold gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Whole

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.Payload.lean ====
/-
  The three kernel bodies, each read at one entry of its output block, at the extended reals.

  A block of 10000 rows is handled at a time.  With x the block of rows, w the weight matrix, b and b' bias rows
  (stored as [1, 64] matrices) and 0 the zero word:
    * the first body stores    (x · w)(p, q) = sum over k < 128 of x(p, k) · w(k, q);
    * the second body stores   sum over k < 64 of max (x(p, k) + b(0, k)) 0 · w(k, q);
    * the third body stores    sigma (sum over k < 64 of max (x(p, k) + b(0, k)) 0 · w(k, q) + b'(0, q)).
  Rounding the matrix product's operands to bf16 is the identity at the extended reals, a shape cast to the same
  shape is the identity, and the product into a zero accumulator is the plain sum.
-/
import proofs.«103817_j9431748182670_1_alg».proof.Proof.Gen.KernelIdeal.Skeleton
import proofs.«103817_j9431748182670_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Idealize.ShloMosaic Idealize.ShloMosaic.ValueIdx Cert.KernelIdeal Cert.KernelIdeal.Gen

/-- The 128-deep product's dimension numbers are the plain ones. -/
theorem dims128 : dot_S10000x128_S128x64_S10000x64_1_0_0_1_n_n = DotDims.plain 10000 128 64 := rfl

/-- The 64-deep product's dimension numbers are the plain ones. -/
theorem dims64 : dot_S10000x64_S64x64_S10000x64_1_0_0_1_n_n = DotDims.plain 10000 64 64 := rfl

/-- The hidden activation of a row block: max (x + b) 0, entry by entry, the bias row repeated down the rows. -/
def act (x : Vec Ideal S10000x64 .f32) (b : Vec Ideal S1x64 .f32) (p : Fin 10000) (k : Fin 64) : EReal :=
  max (x (ix2 p k) + b (ix2 (0 : Fin 1) k)) (Ideal.ofBits .f32 0x00000000#32)

/-- First body: the block of rows times the weights. -/
theorem pay0_apply (v0 : Vec Ideal S10000x128 .f32) (v2 : Vec Ideal S128x64 .f32) (p : Fin 10000) (q : Fin 64) :
    k0_pay1 (F := Ideal) v0 v2 (ix2 p q) = ∑ k : Fin 128, v0 (ix2 p k) * v2 (ix2 k q) := by
  unfold k0_pay1
  rw [dims128]
  exact LibPlainDot.matmul_plain 10000 128 64 none _ _ (ix2 p q)

/-- The activation the second and third bodies feed to their product, at an entry. -/
theorem act_apply (v0 : Vec Ideal S10000x64 .f32) (v2 : Vec Ideal S1x64 .f32) (p : Fin 10000) (k : Fin 64) :
    (truncf .bf16 (maximumf (addf (shapeCast S10000x64 v0 shapeCasts_S10000x64_S10000x64)
        (broadcastTo S10000x64 (shapeCast S1x64 v2 shapeCasts_S1x64_S1x64) broadcasts_S1x64_S10000x64))
      (broadcast S10000x64 (Scalar.ofBits (F := Ideal) .f32 0x00000000#32))) bitsLt_bf16_f32 : FVec Ideal S10000x64 .bf16) (ix2 p k)
    = act v0 v2 p k := by
  show max (shapeCast S10000x64 v0 shapeCasts_S10000x64_S10000x64 (ix2 p k)
      + broadcastTo S10000x64 (shapeCast S1x64 v2 shapeCasts_S1x64_S1x64) broadcasts_S1x64_S10000x64 (ix2 p k)) _ = _
  rw [shapeCast_self, shapeCast_self, broadcastTo_1b_ab_apply]
  rfl

/-- Second body: the activation times the weights. -/
theorem pay1_apply (v0 : Vec Ideal S10000x64 .f32) (v2 : Vec Ideal S1x64 .f32) (v9 : Vec Ideal S64x64 .f32)
    (p : Fin 10000) (q : Fin 64) :
    k1_pay1 (F := Ideal) v0 v2 v9 (ix2 p q) = ∑ k : Fin 64, act v0 v2 p k * v9 (ix2 k q) := by
  unfold k1_pay1
  rw [dims64]
  refine (LibPlainDot.matmul_plain 10000 64 64 none _ _ (ix2 p q)).trans ?_
  refine Finset.sum_congr rfl fun k _ => ?_
  exact congrArg (· * v9 (ix2 k q)) (act_apply v0 v2 p k)

/-- Third body: sigma of the activation times the weights plus the second bias row. -/
theorem pay2_apply (v0 : Vec Ideal S10000x64 .f32) (v2 : Vec Ideal S1x64 .f32) (v9 : Vec Ideal S64x64 .f32)
    (v12 : Vec Ideal S1x64 .f32) (p : Fin 10000) (q : Fin 64) :
    k2_pay1 (F := Ideal) v0 v2 v9 v12 (ix2 p q)
      = Ideal.logistic ((∑ k : Fin 64, act v0 v2 p k * v9 (ix2 k q)) + v12 (ix2 (0 : Fin 1) q)) := by
  unfold k2_pay1
  rw [dims64]
  show Ideal.logistic (matmul (F := Ideal) (DotDims.plain 10000 64 64) none _ _ _ (ix2 p q)
      + broadcastTo S10000x64 (shapeCast S1x64 v12 shapeCasts_S1x64_S1x64) broadcasts_S1x64_S10000x64 (ix2 p q)) = _
  rw [broadcastTo_1b_ab_apply, shapeCast_self v12]
  refine congrArg (fun z => Ideal.logistic (z + v12 (ix2 (0 : Fin 1) q))) ?_
  refine (LibPlainDot.matmul_plain 10000 64 64 none _ _ (ix2 p q)).trans ?_
  refine Finset.sum_congr rfl fun k _ => ?_
  exact congrArg (· * v9 (ix2 k q)) (act_apply v0 v2 p k)

end Cert.KernelIdeal.Bodies

end
-- ==== Proof.Layers.lean ====
/-
  The three dense layers of the network as functions of whole arrays, entry by entry, on the extended reals.

  With x a [100000, d] matrix, w a [d, 64] weight matrix, b and b' bias vectors of length 64 and 0 the zero word:
    * `layer1 x w`         (i, j) ↦ sum over k < 128 of x(i, k) · w(k, j);
    * `layer2 a b w`       (i, j) ↦ sum over k < 64 of max (a(i, k) + b(k)) 0 · w(k, j);
    * `layer3 a b w b'`    (i, j) ↦ sigma (layer2 a b w (i, j) + b'(j)),  sigma(y) = 1 / (1 + exp (−y)).
  A kernel sees a bias as a one-row matrix [1, 64] made from the vector by a shape cast; `layer2Row` and
  `layer3Row` are the same layers over such rows, and they agree with the vector forms.
-/
import Idealize.ShloMosaic.PureOps.Ideal
import Idealize.ShloMosaic.Lib.ValueIdx
import Idealize.ShloMosaic.Lib.ValueLayout

noncomputable section

namespace Cert.Layers

open Idealize.ShloMosaic Idealize.ShloMosaic.ValueIdx

abbrev M128 : Shape := ⟨2, ![100000, 128]⟩
abbrev M64 : Shape := ⟨2, ![100000, 64]⟩
abbrev W128 : Shape := ⟨2, ![128, 64]⟩
abbrev W64 : Shape := ⟨2, ![64, 64]⟩
abbrev Row : Shape := ⟨2, ![1, 64]⟩
abbrev Vec64 : Shape := ⟨1, ![64]⟩

/-- The zero word's value. -/
abbrev zero : EReal := Ideal.ofBits .f32 0x00000000#32

/-- The first layer's product. -/
def layer1 (x : M128.Idx → EReal) (w : W128.Idx → EReal) : M64.Idx → EReal :=
  fun i => ∑ k : Fin 128, x (ix2 (i 0) k) * w (ix2 k (i 1))

/-- The second layer: bias, rectifier, product. -/
def layer2 (a : M64.Idx → EReal) (b : Vec64.Idx → EReal) (w : W64.Idx → EReal) : M64.Idx → EReal :=
  fun i => ∑ k : Fin 64, max (a (ix2 (i 0) k) + b (ix1 k)) zero * w (ix2 k (i 1))

/-- The third layer: the second layer's form, a second bias, the sigmoid. -/
def layer3 (a : M64.Idx → EReal) (b : Vec64.Idx → EReal) (w : W64.Idx → EReal) (b' : Vec64.Idx → EReal) : M64.Idx → EReal :=
  fun i => Ideal.logistic (layer2 a b w i + b' (ix1 (i 1)))

/-- The second layer over a bias row. -/
def layer2Row (a : M64.Idx → EReal) (b : Row.Idx → EReal) (w : W64.Idx → EReal) : M64.Idx → EReal :=
  fun i => ∑ k : Fin 64, max (a (ix2 (i 0) k) + b (ix2 (0 : Fin 1) k)) zero * w (ix2 k (i 1))

/-- The third layer over bias rows. -/
def layer3Row (a : M64.Idx → EReal) (b : Row.Idx → EReal) (w : W64.Idx → EReal) (b' : Row.Idx → EReal) : M64.Idx → EReal :=
  fun i => Ideal.logistic (layer2Row a b w i + b' (ix2 (0 : Fin 1) (i 1)))

/-- A bias row cast from a vector gives the vector's layer. -/
theorem layer2Row_cast (a : M64.Idx → EReal) (b : Vec64.Idx → EReal) (w : W64.Idx → EReal) (h : Vec64.ShapeCasts Row) :
    layer2Row a (shapeCast Row b h) w = layer2 a b w := by
  funext i
  unfold layer2Row layer2
  refine Finset.sum_congr rfl fun k _ => ?_
  rw [shapeCast_a_1a_apply]

/-- Bias rows cast from vectors give the vectors' third layer. -/
theorem layer3Row_cast (a : M64.Idx → EReal) (b : Vec64.Idx → EReal) (w : W64.Idx → EReal) (b' : Vec64.Idx → EReal)
    (h h' : Vec64.ShapeCasts Row) :
    layer3Row a (shapeCast Row b h) w (shapeCast Row b' h') = layer3 a b w b' := by
  funext i
  unfold layer3Row layer3
  rw [layer2Row_cast]
  exact congrArg (fun z => Ideal.logistic (layer2 a b w i + z)) (shapeCast_a_1a_apply b' h' (0 : Fin 1) (i 1))

end Cert.Layers

end
-- ==== Proof.Region0.lean ====
/-
  The first region, as one function of the arrays it finds.

  The region multiplies the [100000, 128] feature matrix x, ten blocks of 10000 rows, by the [128, 64] weight
  matrix w, which every grid point sees whole, and writes block t of the [100000, 64] result at point t.  Entry
  (r, q) of the result lies in block r / 10000 and there, by the body's product, is the sum over k < 128 of
  x(r, k) · w(k, q).  The ten blocks tile the result, so after the region the array is the product x · w, entry by
  entry, whatever the region found in the result array before.
-/
import proofs.«103817_j9431748182670_1_alg».proof.Proof.Gen.KernelIdeal.Frame
import proofs.«103817_j9431748182670_1_alg».proof.Proof.Payload
import proofs.«103817_j9431748182670_1_alg».proof.Proof.Layers
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.Bodies Cert.Layers

theorem hz : (![0, 0] : Fin 2 → Nat) = fun _ => 0 := funext fun a => by fin_cases a <;> rfl

/-- The block indices over the grid: the row windows move with the point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a block's product is the matching entry of the whole product, when the block of rows is rows
    10000·T … of x and the weight block is w. -/
theorem block_entry (x : S100000x128.Idx → EReal) (w : S128x64.Idx → EReal)
    (x0 : Vec Ideal S10000x128 .f32) (x1 : Vec Ideal S128x64 .f32) (T : Nat)
    (h0 : ∀ (y : S10000x128.Idx) (k : S100000x128.Idx), (k 0).val = T * 10000 + (y 0).val → (k 1).val = (y 1).val → x0 y = x k)
    (h1 : ∀ y : S128x64.Idx, x1 y = w y)
    (y : S10000x64.Idx) (i : S100000x64.Idx) (hi0 : (i 0).val = T * 10000 + (y 0).val) (hi1 : (i 1).val = (y 1).val) :
    k0_pay1 (F := Ideal) x0 x1 y = layer1 x w i := by
  obtain ⟨p, q, rfl⟩ : ∃ (p : Fin 10000) (q : Fin 64), y = ix2 p q := ⟨y 0, y 1, eq_ix2 y⟩
  rw [pay0_apply]
  unfold layer1
  refine Finset.sum_congr rfl fun k _ => ?_
  rw [h0 (ix2 p k) (ix2 (i 0) k) hi0 rfl, h1 (ix2 k q)]
  refine congrArg (fun z => x (ix2 (i 0) k) * w z) ?_
  funext a
  match a with
  | ⟨0, _⟩ => rfl
  | ⟨1, _⟩ => exact Fin.ext hi1.symm

section
variable (V : (c : Dev nD) → (b : Ref sig .tc) → Buf (Elt Ideal) ((c : Thread nD τ).loc b))

/-- The row window's block at point t is rows 10000·t … of the feature matrix. -/
theorem rows_apply (c : Dev nD) (t : Fin cfg0.N) (y : S10000x128.Idx) (k : S100000x128.Idx)
    (hk0 : (k 0).val = t.val * 10000 + (y 0).val) (hk1 : (k 1).val = (y 1).val) :
    (iblk0 V c 0 t : Vec Ideal S10000x128 .f32) y = (V c main_arg0 : S100000x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 10000 + 1 * (y 0).val = (k 0).val; rw [e0, hk0]; omega
  | ⟨1, _⟩ => show win0_0.index t 1 * 128 + 1 * (y 1).val = (k 1).val; rw [e1, hk1]; omega

/-- The weight window's block at every point is the weight matrix. -/
theorem weights_apply (c : Dev nD) (t : Fin cfg0.N) (y : S128x64.Idx) :
    (iblk0 V c 1 t : Vec Ideal S128x64 .f32) y = (V c main_arg2 : S128x64.Idx → EReal) y := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t 0 * 128 + 1 * (y 0).val = (y 0).val; rw [e2]; omega
  | ⟨1, _⟩ => show win0_1.index t 1 * 64 + 1 * (y 1).val = (y 1).val; rw [e3]; omega

/-- What point t writes back is block t of the product. -/
theorem flushed_eq (c : Dev nD) (t : Fin cfg0.N) :
    (dat0 V c).flushed 2 t = ((cfg0.win 2).blk t).view.read (Elt Ideal) (layer1 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨-, -, -, -, e4, e5⟩ := idx_facts t
  funext j
  show k0_pay1 (F := Ideal) (iblk0 V c 0 t) (iblk0 V c 1 t) j
    = layer1 (V c main_arg0) (V c main_arg2) (((cfg0.win 2).blk t).view.emb j)
  refine block_entry (V c main_arg0) (V c main_arg2) (iblk0 V c 0 t) (iblk0 V c 1 t) t.val
    (fun y k hk0 hk1 => rows_apply V c t y k hk0 hk1) (fun y => weights_apply V c t y) j (((cfg0.win 2).blk t).view.emb j) ?_ ?_
  · show win0_2.index t 0 * 10000 + 1 * (j 0).val = t.val * 10000 + (j 0).val
    rw [e4]; omega
  · show win0_2.index t 1 * 64 + 1 * (j 1).val = (j 1).val
    rw [e5]; omega

/-- An entry of the result array is in point t's block iff its coordinates are in the block's ranges. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v27).slice (win0_2.rect t)).set ↔ _
  rw [View.set_slice_whole, Rect.mem_set_unit]
  exact Iff.rfl

/-- Every entry of the result is in the block of the point its row names. -/
theorem cover (i : S100000x64.Idx) : ∃ t : Fin cfg0.N, (cfg0.win 2).flush t = true ∧ i ∈ ((cfg0.win 2).blk t).view.set := by
  have h0 : (i 0).val < 100000 := (i 0).isLt
  have h1 : (i 1).val < 64 := (i 1).isLt
  have hN : cfg0.N = 10 := N_0
  have hlt : (i 0).val / 10000 < cfg0.N := by rw [hN]; omega
  obtain ⟨-, -, -, -, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ 0 * 10000 ≤ (i 0).val ∧ (i 0).val < win0_2.index ⟨(i 0).val / 10000, hlt⟩ 0 * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ 1 * 64 ≤ (i 1).val ∧ (i 1).val < win0_2.index ⟨(i 0).val / 10000, hlt⟩ 1 * 64 + 64
    rw [e5]; omega

/-- After the region its result array is the product of the two arrays it found. -/
theorem arr_eq (c : Dev nD) : (dat0 V c).arrAt 2 cfg0.N = layer1 (V c main_arg0) (V c main_arg2) :=
  (dat0 V c).arrAt_eq_of_cover 2 (layer1 (V c main_arg0) (V c main_arg2)) (fun t _ => flushed_eq V c t) cover

end

end Cert.KernelIdeal.Region0

end
-- ==== Proof.Region1.lean ====
/-
  The second region, as one function of the arrays it finds.

  The region takes the [100000, 64] aggregate a in ten blocks of 10000 rows, a bias row b [1, 64] and the [64, 64]
  weights w, both seen whole at every point, and writes block t of the [100000, 64] result at point t.  Entry (r, q)
  lies in block r / 10000 and there is the sum over k < 64 of max (a(r, k) + b(0, k)) 0 · w(k, q).  The ten blocks tile
  the result: after the region the array is the second layer of what the region found.
-/
import proofs.«103817_j9431748182670_1_alg».proof.Proof.Gen.KernelIdeal.Frame
import proofs.«103817_j9431748182670_1_alg».proof.Proof.Payload
import proofs.«103817_j9431748182670_1_alg».proof.Proof.Layers
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.KernelIdeal.Bodies Cert.Layers

theorem hz : (![0, 0] : Fin 2 → Nat) = fun _ => 0 := funext fun a => by fin_cases a <;> rfl

/-- The block indices over the grid: the row windows move with the point, the bias and weight windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a block's second layer is the matching entry of the whole second layer, when the block of rows is rows
    10000·T … of a and the bias and weight blocks are b and w. -/
theorem block_entry (a : S100000x64.Idx → EReal) (b : S1x64.Idx → EReal) (w : S64x64.Idx → EReal)
    (x0 : Vec Ideal S10000x64 .f32) (x1 : Vec Ideal S1x64 .f32) (x2 : Vec Ideal S64x64 .f32) (T : Nat)
    (h0 : ∀ (y : S10000x64.Idx) (k : S100000x64.Idx), (k 0).val = T * 10000 + (y 0).val → (k 1).val = (y 1).val → x0 y = a k)
    (h1 : ∀ y : S1x64.Idx, x1 y = b y) (h2 : ∀ y : S64x64.Idx, x2 y = w y)
    (y : S10000x64.Idx) (i : S100000x64.Idx) (hi0 : (i 0).val = T * 10000 + (y 0).val) (hi1 : (i 1).val = (y 1).val) :
    k1_pay1 (F := Ideal) x0 x1 x2 y = layer2Row a b w i := by
  obtain ⟨p, q, rfl⟩ : ∃ (p : Fin 10000) (q : Fin 64), y = ix2 p q := ⟨y 0, y 1, eq_ix2 y⟩
  rw [pay1_apply]
  unfold layer2Row
  refine Finset.sum_congr rfl fun k _ => ?_
  unfold act
  rw [h0 (ix2 p k) (ix2 (i 0) k) hi0 rfl, h1 (ix2 (0 : Fin 1) k), h2 (ix2 k q)]
  refine congrArg (fun z => max (a (ix2 (i 0) k) + b (ix2 (0 : Fin 1) k)) zero * w z) ?_
  funext d
  match d with
  | ⟨0, _⟩ => rfl
  | ⟨1, _⟩ => exact Fin.ext hi1.symm

section
variable (V : (c : Dev nD) → (b : Ref sig .tc) → Buf (Elt Ideal) ((c : Thread nD τ).loc b))

/-- The row window's block at point t is rows 10000·t … of the aggregate. -/
theorem rows_apply (c : Dev nD) (t : Fin cfg1.N) (y : S10000x64.Idx) (k : S100000x64.Idx)
    (hk0 : (k 0).val = t.val * 10000 + (y 0).val) (hk1 : (k 1).val = (y 1).val) :
    (iblk1 V c 0 t : Vec Ideal S10000x64 .f32) y = (V c main_v44 : S100000x64.Idx → EReal) k := by
  have e := idx_facts t
  unfold iblk1
  rw [View.read_apply]
  show V c main_v44 _ = V c main_v44 _
  congr 1
  funext a
  apply Fin.ext
  match a with
  | ⟨0, _⟩ => show win1_0.index t 0 * 10000 + 1 * (y 0).val = (k 0).val; rw [e.1, hk0]; omega
  | ⟨1, _⟩ => show win1_0.index t 1 * 64 + 1 * (y 1).val = (k 1).val; rw [e.2.1, hk1]; omega

/-- The bias window's block at every point is the bias row. -/
theorem bias_apply (c : Dev nD) (t : Fin cfg1.N) (y : S1x64.Idx) :
    (iblk1 V c 1 t : Vec Ideal S1x64 .f32) y = (V c main_v45 : S1x64.Idx → EReal) y := by
  have e := idx_facts t
  unfold iblk1
  rw [View.read_apply]
  show V c main_v45 _ = V c main_v45 _
  congr 1
  funext a
  apply Fin.ext
  match a with
  | ⟨0, _⟩ => show win1_1.index t 0 * 1 + 1 * (y 0).val = (y 0).val; rw [e.2.2.1]; omega
  | ⟨1, _⟩ => show win1_1.index t 1 * 64 + 1 * (y 1).val = (y 1).val; rw [e.2.2.2.1]; omega

/-- The weight window's block at every point is the weight matrix. -/
theorem weights_apply (c : Dev nD) (t : Fin cfg1.N) (y : S64x64.Idx) :
    (iblk1 V c 2 t : Vec Ideal S64x64 .f32) y = (V c main_arg4 : S64x64.Idx → EReal) y := by
  have e := idx_facts t
  unfold iblk1
  rw [View.read_apply]
  show V c main_arg4 _ = V c main_arg4 _
  congr 1
  funext a
  apply Fin.ext
  match a with
  | ⟨0, _⟩ => show win1_2.index t 0 * 64 + 1 * (y 0).val = (y 0).val; rw [e.2.2.2.2.1]; omega
  | ⟨1, _⟩ => show win1_2.index t 1 * 64 + 1 * (y 1).val = (y 1).val; rw [e.2.2.2.2.2.1]; omega

/-- What point t writes back is block t of the second layer. -/
theorem flushed_eq (c : Dev nD) (t : Fin cfg1.N) :
    (dat1 V c).flushed 3 t = ((cfg1.win 3).blk t).view.read (Elt Ideal) (layer2Row (V c main_v44) (V c main_v45) (V c main_arg4)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  have e := idx_facts t
  funext j
  show k1_pay1 (F := Ideal) (iblk1 V c 0 t) (iblk1 V c 1 t) (iblk1 V c 2 t) j
    = layer2Row (V c main_v44) (V c main_v45) (V c main_arg4) (((cfg1.win 3).blk t).view.emb j)
  refine block_entry (V c main_v44) (V c main_v45) (V c main_arg4) (iblk1 V c 0 t) (iblk1 V c 1 t) (iblk1 V c 2 t) t.val
    (fun y k hk0 hk1 => rows_apply V c t y k hk0 hk1) (fun y => bias_apply V c t y) (fun y => weights_apply V c t y)
    j (((cfg1.win 3).blk t).view.emb j) ?_ ?_
  · show win1_3.index t 0 * 10000 + 1 * (j 0).val = t.val * 10000 + (j 0).val
    rw [e.2.2.2.2.2.2.1]; omega
  · show win1_3.index t 1 * 64 + 1 * (j 1).val = (j 1).val
    rw [e.2.2.2.2.2.2.2]; omega

/-- An entry of the result array is in point t's block iff its coordinates are in the block's ranges. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v46).slice (win1_3.rect t)).set ↔ _
  rw [View.set_slice_whole, Rect.mem_set_unit]
  exact Iff.rfl

/-- Every entry of the result is in the block of the point its row names. -/
theorem cover (i : S100000x64.Idx) : ∃ t : Fin cfg1.N, (cfg1.win 3).flush t = true ∧ i ∈ ((cfg1.win 3).blk t).view.set := by
  have h0 : (i 0).val < 100000 := (i 0).isLt
  have h1 : (i 1).val < 64 := (i 1).isLt
  have hN : cfg1.N = 10 := N_1
  have hlt : (i 0).val / 10000 < cfg1.N := by rw [hN]; omega
  have e := idx_facts ⟨(i 0).val / 10000, hlt⟩
  refine ⟨⟨(i 0).val / 10000, hlt⟩, flush1_3 _, ?_⟩
  rw [mem_blk]
  intro a
  match a with
  | ⟨0, _⟩ =>
    show win1_3.index ⟨(i 0).val / 10000, hlt⟩ 0 * 10000 ≤ (i 0).val ∧ (i 0).val < win1_3.index ⟨(i 0).val / 10000, hlt⟩ 0 * 10000 + 10000
    rw [e.2.2.2.2.2.2.1]; show (i 0).val / 10000 * 10000 ≤ (i 0).val ∧ (i 0).val < (i 0).val / 10000 * 10000 + 10000; omega
  | ⟨1, _⟩ =>
    show win1_3.index ⟨(i 0).val / 10000, hlt⟩ 1 * 64 ≤ (i 1).val ∧ (i 1).val < win1_3.index ⟨(i 0).val / 10000, hlt⟩ 1 * 64 + 64
    rw [e.2.2.2.2.2.2.2]; omega

/-- After the region its result array is the second layer of the three arrays it found. -/
theorem arr_eq (c : Dev nD) : (dat1 V c).arrAt 3 cfg1.N = layer2Row (V c main_v44) (V c main_v45) (V c main_arg4) :=
  (dat1 V c).arrAt_eq_of_cover 3 (layer2Row (V c main_v44) (V c main_v45) (V c main_arg4)) (fun t _ => flushed_eq V c t) cover

end

end Cert.KernelIdeal.Region1

end
-- ==== Proof.Region2.lean ====
/-
  The third region, as one function of the arrays it finds.

  The region takes the [100000, 64] aggregate a in ten blocks of 10000 rows, two bias rows b, b' [1, 64] and the
  [64, 64] weights w, seen whole at every point, and writes block t of the [100000, 64] result at point t.  Entry
  (r, q) lies in block r / 10000 and there is sigma of the sum over k < 64 of max (a(r, k) + b(0, k)) 0 · w(k, q),
  plus b'(0, q).  The ten blocks tile the result: after the region the array is the third layer of what it found.
-/
import proofs.«103817_j9431748182670_1_alg».proof.Proof.Gen.KernelIdeal.Frame
import proofs.«103817_j9431748182670_1_alg».proof.Proof.Payload
import proofs.«103817_j9431748182670_1_alg».proof.Proof.Layers
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.KernelIdeal.Bodies Cert.Layers

theorem hz : (![0, 0] : Fin 2 → Nat) = fun _ => 0 := funext fun a => by fin_cases a <;> rfl

/-- The block indices over the grid: the row windows move with the point, the bias and weight windows stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- One entry of a block's third layer is the matching entry of the whole third layer, when the block of rows is rows
    10000·T … of a and the other blocks are b, w and b'. -/
theorem block_entry (a : S100000x64.Idx → EReal) (b : S1x64.Idx → EReal) (w : S64x64.Idx → EReal) (b' : S1x64.Idx → EReal)
    (x0 : Vec Ideal S10000x64 .f32) (x1 : Vec Ideal S1x64 .f32) (x2 : Vec Ideal S64x64 .f32) (x3 : Vec Ideal S1x64 .f32) (T : Nat)
    (h0 : ∀ (y : S10000x64.Idx) (k : S100000x64.Idx), (k 0).val = T * 10000 + (y 0).val → (k 1).val = (y 1).val → x0 y = a k)
    (h1 : ∀ y : S1x64.Idx, x1 y = b y) (h2 : ∀ y : S64x64.Idx, x2 y = w y) (h3 : ∀ y : S1x64.Idx, x3 y = b' y)
    (y : S10000x64.Idx) (i : S100000x64.Idx) (hi0 : (i 0).val = T * 10000 + (y 0).val) (hi1 : (i 1).val = (y 1).val) :
    k2_pay1 (F := Ideal) x0 x1 x2 x3 y = layer3Row a b w b' i := by
  obtain ⟨p, q, rfl⟩ : ∃ (p : Fin 10000) (q : Fin 64), y = ix2 p q := ⟨y 0, y 1, eq_ix2 y⟩
  have eq1 : (i 1 : Fin 64) = q := Fin.ext hi1
  rw [pay2_apply]
  unfold layer3Row layer2Row
  rw [h3 (ix2 (0 : Fin 1) q)]
  have eb : (ix2 (0 : Fin 1) q : S1x64.Idx) = ix2 (0 : Fin 1) (i 1) := by
    funext d
    match d with
    | ⟨0, _⟩ => rfl
    | ⟨1, _⟩ => exact eq1.symm
  rw [eb]
  refine congrArg (fun s => Ideal.logistic (s + b' (ix2 (0 : Fin 1) (i 1)))) ?_
  refine Finset.sum_congr rfl fun k _ => ?_
  unfold act
  rw [h0 (ix2 p k) (ix2 (i 0) k) hi0 rfl, h1 (ix2 (0 : Fin 1) k), h2 (ix2 k q)]
  refine congrArg (fun z => max (a (ix2 (i 0) k) + b (ix2 (0 : Fin 1) k)) zero * w z) ?_
  funext d
  match d with
  | ⟨0, _⟩ => rfl
  | ⟨1, _⟩ => exact eq1.symm

section
variable (V : (c : Dev nD) → (b : Ref sig .tc) → Buf (Elt Ideal) ((c : Thread nD τ).loc b))

/-- The row window's block at point t is rows 10000·t … of the aggregate. -/
theorem rows_apply (c : Dev nD) (t : Fin cfg2.N) (y : S10000x64.Idx) (k : S100000x64.Idx)
    (hk0 : (k 0).val = t.val * 10000 + (y 0).val) (hk1 : (k 1).val = (y 1).val) :
    (iblk2 V c 0 t : Vec Ideal S10000x64 .f32) y = (V c main_v63 : S100000x64.Idx → EReal) k := by
  have e := idx_facts t
  unfold iblk2
  rw [View.read_apply]
  show V c main_v63 _ = V c main_v63 _
  congr 1
  funext a
  apply Fin.ext
  match a with
  | ⟨0, _⟩ => show win2_0.index t 0 * 10000 + 1 * (y 0).val = (k 0).val; rw [e.1, hk0]; omega
  | ⟨1, _⟩ => show win2_0.index t 1 * 64 + 1 * (y 1).val = (k 1).val; rw [e.2.1, hk1]; omega

/-- The first bias window's block at every point is the bias row. -/
theorem bias_apply (c : Dev nD) (t : Fin cfg2.N) (y : S1x64.Idx) :
    (iblk2 V c 1 t : Vec Ideal S1x64 .f32) y = (V c main_v64 : S1x64.Idx → EReal) y := by
  have e := idx_facts t
  unfold iblk2
  rw [View.read_apply]
  show V c main_v64 _ = V c main_v64 _
  congr 1
  funext a
  apply Fin.ext
  match a with
  | ⟨0, _⟩ => show win2_1.index t 0 * 1 + 1 * (y 0).val = (y 0).val; rw [e.2.2.1]; omega
  | ⟨1, _⟩ => show win2_1.index t 1 * 64 + 1 * (y 1).val = (y 1).val; rw [e.2.2.2.1]; omega

/-- The weight window's block at every point is the weight matrix. -/
theorem weights_apply (c : Dev nD) (t : Fin cfg2.N) (y : S64x64.Idx) :
    (iblk2 V c 2 t : Vec Ideal S64x64 .f32) y = (V c main_arg6 : S64x64.Idx → EReal) y := by
  have e := idx_facts t
  unfold iblk2
  rw [View.read_apply]
  show V c main_arg6 _ = V c main_arg6 _
  congr 1
  funext a
  apply Fin.ext
  match a with
  | ⟨0, _⟩ => show win2_2.index t 0 * 64 + 1 * (y 0).val = (y 0).val; rw [e.2.2.2.2.1]; omega
  | ⟨1, _⟩ => show win2_2.index t 1 * 64 + 1 * (y 1).val = (y 1).val; rw [e.2.2.2.2.2.1]; omega

/-- The second bias window's block at every point is the bias row. -/
theorem bias2_apply (c : Dev nD) (t : Fin cfg2.N) (y : S1x64.Idx) :
    (iblk2 V c 3 t : Vec Ideal S1x64 .f32) y = (V c main_v65 : S1x64.Idx → EReal) y := by
  have e := idx_facts t
  unfold iblk2
  rw [View.read_apply]
  show V c main_v65 _ = V c main_v65 _
  congr 1
  funext a
  apply Fin.ext
  match a with
  | ⟨0, _⟩ => show win2_3.index t 0 * 1 + 1 * (y 0).val = (y 0).val; rw [e.2.2.2.2.2.2.1]; omega
  | ⟨1, _⟩ => show win2_3.index t 1 * 64 + 1 * (y 1).val = (y 1).val; rw [e.2.2.2.2.2.2.2.1]; omega

/-- What point t writes back is block t of the third layer. -/
theorem flushed_eq (c : Dev nD) (t : Fin cfg2.N) :
    (dat2 V c).flushed 4 t = ((cfg2.win 4).blk t).view.read (Elt Ideal) (layer3Row (V c main_v63) (V c main_v64) (V c main_arg6) (V c main_v65)) := by
  show (cfg2.win 4).cut (grid2.coords t) ((dat2 V c).after 4 t) = _
  rw [after2_4]
  unfold out2_4
  rw [View.canon_unit_zero hz]
  simp only [View.ld_unit_zero (S := S10000x64) hz, View.ld_unit_zero (S := S1x64) hz, View.ld_unit_zero (S := S64x64) hz]
  have e := idx_facts t
  funext j
  show k2_pay1 (F := Ideal) (iblk2 V c 0 t) (iblk2 V c 1 t) (iblk2 V c 2 t) (iblk2 V c 3 t) j
    = layer3Row (V c main_v63) (V c main_v64) (V c main_arg6) (V c main_v65) (((cfg2.win 4).blk t).view.emb j)
  refine block_entry (V c main_v63) (V c main_v64) (V c main_arg6) (V c main_v65)
    (iblk2 V c 0 t) (iblk2 V c 1 t) (iblk2 V c 2 t) (iblk2 V c 3 t) t.val
    (fun y k hk0 hk1 => rows_apply V c t y k hk0 hk1) (fun y => bias_apply V c t y) (fun y => weights_apply V c t y)
    (fun y => bias2_apply V c t y) j (((cfg2.win 4).blk t).view.emb j) ?_ ?_
  · show win2_4.index t 0 * 10000 + 1 * (j 0).val = t.val * 10000 + (j 0).val
    rw [e.2.2.2.2.2.2.2.2.1]; omega
  · show win2_4.index t 1 * 64 + 1 * (j 1).val = (j 1).val
    rw [e.2.2.2.2.2.2.2.2.2]; omega

/-- An entry of the result array is in point t's block iff its coordinates are in the block's ranges. -/
theorem mem_blk (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v66).slice (win2_4.rect t)).set ↔ _
  rw [View.set_slice_whole, Rect.mem_set_unit]
  exact Iff.rfl

/-- Every entry of the result is in the block of the point its row names. -/
theorem cover (i : S100000x64.Idx) : ∃ t : Fin cfg2.N, (cfg2.win 4).flush t = true ∧ i ∈ ((cfg2.win 4).blk t).view.set := by
  have h0 : (i 0).val < 100000 := (i 0).isLt
  have h1 : (i 1).val < 64 := (i 1).isLt
  have hN : cfg2.N = 10 := N_2
  have hlt : (i 0).val / 10000 < cfg2.N := by rw [hN]; omega
  have e := idx_facts ⟨(i 0).val / 10000, hlt⟩
  refine ⟨⟨(i 0).val / 10000, hlt⟩, flush2_4 _, ?_⟩
  rw [mem_blk]
  intro a
  match a with
  | ⟨0, _⟩ =>
    show win2_4.index ⟨(i 0).val / 10000, hlt⟩ 0 * 10000 ≤ (i 0).val ∧ (i 0).val < win2_4.index ⟨(i 0).val / 10000, hlt⟩ 0 * 10000 + 10000
    rw [e.2.2.2.2.2.2.2.2.1]; show (i 0).val / 10000 * 10000 ≤ (i 0).val ∧ (i 0).val < (i 0).val / 10000 * 10000 + 10000; omega
  | ⟨1, _⟩ =>
    show win2_4.index ⟨(i 0).val / 10000, hlt⟩ 1 * 64 ≤ (i 1).val ∧ (i 1).val < win2_4.index ⟨(i 0).val / 10000, hlt⟩ 1 * 64 + 64
    rw [e.2.2.2.2.2.2.2.2.2]; omega

/-- After the region its result array is the third layer of the four arrays it found. -/
theorem arr_eq (c : Dev nD) : (dat2 V c).arrAt 4 cfg2.N = layer3Row (V c main_v63) (V c main_v64) (V c main_arg6) (V c main_v65) :=
  (dat2 V c).arrAt_eq_of_cover 4 (layer3Row (V c main_v63) (V c main_v64) (V c main_arg6) (V c main_v65)) (fun t _ => flushed_eq V c t) cover

end

end Cert.KernelIdeal.Region2

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.RefStages.lean ====
/-
  The reference's dense stages are the three layers.

  Reading the reference one operation at a time (its generated stages `val_main_vN`):
    * its first product is `layer1 x W1`;
    * after the first aggregation it adds the bias b1 (broadcast along the rows), applies max(·, 0) and multiplies by
      W2: that is `layer2` of the aggregate, b1 and W2;
    * after the second aggregation it adds b2, applies max(·, 0), multiplies by Wl, adds bl and forms
      1 / (1 + exp (−y)): that is `layer3` of the aggregate, b2, Wl and bl, the quotient being the sigmoid on every
      extended real.
-/
import proofs.«103817_j9431748182670_1_alg».proof.Proof.Gen.ReferenceIdeal.Read
import proofs.«103817_j9431748182670_1_alg».proof.Proof.Layers
import proofs.«103817_j9431748182670_1_alg».proof.Proof.LibSpellings

set_option maxRecDepth 16384

noncomputable section

namespace Cert.ReferenceIdeal.Stages

open Cert.ReferenceIdeal Cert.ReferenceIdeal.Read Idealize.ShloMosaic Idealize.ShloMosaic.ValueIdx Cert.Layers

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal)) (x4 : (⟨S64x64, .f32⟩ : BufTy).Contents (Elt Ideal))
  (x5 : (⟨S64, .f32⟩ : BufTy).Contents (Elt Ideal)) (x6 : (⟨S64x64, .f32⟩ : BufTy).Contents (Elt Ideal)) (x7 : (⟨S64, .f32⟩ : BufTy).Contents (Elt Ideal))

/-- The first product. -/
theorem v4_eq : val_main_v4 (F := Ideal) x0 x2 = layer1 x0 x2 := by
  funext i
  rw [val_main_v4_apply]
  unfold layer1
  refine Finset.sum_congr rfl fun k _ => ?_
  have el : lidx_main_v4 i k = ix2 (i 0) k := funext fun a => Fin.ext (by match a with | ⟨0, _⟩ => rfl | ⟨1, _⟩ => rfl)
  have er : ridx_main_v4 i k = ix2 k (i 1) := funext fun a => Fin.ext (by match a with | ⟨0, _⟩ => rfl | ⟨1, _⟩ => rfl)
  rw [el, er]
  rfl

/-- The second product, with the bias and rectifier before it, is the second layer of the first aggregate. -/
theorem v49_eq : val_main_v49 (F := Ideal) x0 x1 x2 x3 x4 = layer2 (val_main_v44 (F := Ideal) x0 x1 x2) x3 x4 := by
  funext i
  rw [val_main_v49_apply]
  unfold layer2
  refine Finset.sum_congr rfl fun k _ => ?_
  have el : lidx_main_v49 i k = ix2 (i 0) k := funext fun a => Fin.ext (by match a with | ⟨0, _⟩ => rfl | ⟨1, _⟩ => rfl)
  have er : ridx_main_v49 i k = ix2 k (i 1) := funext fun a => Fin.ext (by match a with | ⟨0, _⟩ => rfl | ⟨1, _⟩ => rfl)
  have eb : idx_main_v45 (idx_main_v46 (lidx_main_v49 i k)) = ix1 k := funext fun a => Fin.ext (by match a with | ⟨0, _⟩ => rfl)
  rw [val_main_v48_apply, val_main_v47_apply, val_main_v46_apply, val_main_v45_apply, val_main_call0_v0_apply,
    val_main_call0_cst_apply, eb, el, er]
  rfl

/-- The third product with its biases, rectifier and the quotient 1 / (1 + exp (−y)) is the third layer of the second
    aggregate. -/
theorem v103_eq : val_main_v103 (F := Ideal) x0 x1 x2 x3 x4 x5 x6 x7
    = layer3 (val_main_v89 (F := Ideal) x0 x1 x2 x3 x4) x5 x6 x7 := by
  funext i
  rw [val_main_v103_apply, val_main_v102_apply, val_main_cst_19_apply, val_main_v101_apply, val_main_v100_apply,
    val_main_cst_18_apply, val_main_v99_apply, val_main_v98_apply, LibSpellings.hostQuotient_eq_logistic,
    val_main_v97_apply]
  have hs : val_main_v94 (F := Ideal) x0 x1 x2 x3 x4 x5 x6 i = layer2 (val_main_v89 (F := Ideal) x0 x1 x2 x3 x4) x5 x6 i := by
    rw [val_main_v94_apply]
    unfold layer2
    refine Finset.sum_congr rfl fun k _ => ?_
    have el : lidx_main_v94 i k = ix2 (i 0) k := funext fun a => Fin.ext (by match a with | ⟨0, _⟩ => rfl | ⟨1, _⟩ => rfl)
    have er : ridx_main_v94 i k = ix2 k (i 1) := funext fun a => Fin.ext (by match a with | ⟨0, _⟩ => rfl | ⟨1, _⟩ => rfl)
    have eb : idx_main_v90 (idx_main_v91 (lidx_main_v94 i k)) = ix1 k := funext fun a => Fin.ext (by match a with | ⟨0, _⟩ => rfl)
    rw [val_main_v93_apply, val_main_v92_apply, val_main_v91_apply, val_main_v90_apply, val_main_call1_v0_apply,
      val_main_call1_cst_apply, eb, el, er]
    rfl
  have hb : val_main_v96 (F := Ideal) x7 i = x7 (ix1 (i 1)) := by
    rw [val_main_v96_apply, val_main_v95_apply]
    exact congrArg x7 (funext fun a => Fin.ext (by match a with | ⟨0, _⟩ => rfl))
  rw [hs, hb]
  rfl

end Cert.ReferenceIdeal.Stages

end
-- ==== Proof.Walk.lean ====
/-
  The idealized kernel's @main, boundary by boundary, against the reference's stages.

  Write x0 … x7 for the launch contents of the arguments (features, edge list, W1, b1, W2, b2, Wl, bl).  The
  reference's stages `val_main_vN` are functions of these.  Walking the kernel's fold:
    * after the first stretch of host operations the source and destination rows of the edge list, the per-edge
      normalisation and the per-node self-normalisation are the reference's (its first copy of the degree chain), and
      the arguments are as launched;
    * the first region leaves x0 · x2 in its result, the reference's first product;
    * the second stretch aggregates that product over the graph exactly as the reference does and recasts b1 as a row;
    * the second region leaves the hidden layer of that aggregate, the reference's second product;
    * the third stretch aggregates again and recasts b2 and bl; the third region leaves the output layer, the
      reference's sigmoid; the last operation transposes it, as the reference's last operation does.
  Buffers a stretch or a region does not write are carried along unchanged.
-/
import proofs.«103817_j9431748182670_1_alg».proof.Proof.Gen.KernelIdeal.Frame
import proofs.«103817_j9431748182670_1_alg».proof.Proof.Gen.ReferenceIdeal.Read
import proofs.«103817_j9431748182670_1_alg».proof.Proof.Region0
import proofs.«103817_j9431748182670_1_alg».proof.Proof.Region1
import proofs.«103817_j9431748182670_1_alg».proof.Proof.Region2
import proofs.«103817_j9431748182670_1_alg».proof.Proof.RefStages
import proofs.«103817_j9431748182670_1_alg».proof.Proof.Layers

set_option maxRecDepth 16384

noncomputable section

namespace Cert.KernelIdeal.Walk

open Cert.KernelIdeal Cert.KernelIdeal.Gen Cert.Layers
open Idealize.ShloMosaic Idealize.ShloMosaic.TcCoe Idealize.SL.Sem Idealize.ShloMosaic.StableHlo
open Cert.ReferenceIdeal.Read (val_main_v1 val_main_v3 val_main_v26 val_main_v40 val_main_v4 val_main_v44 val_main_v49
  val_main_v89 val_main_v103 val_main_v104)

variable (m : (ℓ : Loc nD τ sig) → Buf (Elt Ideal) ℓ) (ρ : Dev nD → PrngReg) (c : Dev nD)

/-! ## After the first stretch -/

theorem A_v1 : W1 m ρ c (Proc.devRef .tc main_v1) = val_main_v1 (F := Ideal) (m ((c : Thread nD τ).loc main_arg1)) := by
  show StableHlo.after hostOps0 (W0 m ρ c) (Proc.devRef .tc main_v1) = _
  after_results_simp
  rfl
theorem A_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl
theorem A_v25 : W1 m ρ c (Proc.devRef .tc main_v25) = val_main_v26 (F := Ideal) (m ((c : Thread nD τ).loc main_arg1)) := by
  show StableHlo.after hostOps0 (W0 m ρ c) (Proc.devRef .tc main_v25) = _
  after_results_simp
  rfl
theorem A_v26 : W1 m ρ c (Proc.devRef .tc main_v26) = val_main_v40 (F := Ideal) (m ((c : Thread nD τ).loc main_arg1)) := by
  show StableHlo.after hostOps0 (W0 m ρ c) (Proc.devRef .tc main_v26) = _
  after_results_simp
  rfl
theorem A_arg0 : W1 m ρ c (Proc.devRef .tc main_arg0) = (m ((c : Thread nD τ).loc main_arg0)) := by
  show StableHlo.after hostOps0 (W0 m ρ c) (Proc.devRef .tc main_arg0) = _
  after_results_simp <;> rfl
theorem A_arg2 : W1 m ρ c (Proc.devRef .tc main_arg2) = (m ((c : Thread nD τ).loc main_arg2)) := by
  show StableHlo.after hostOps0 (W0 m ρ c) (Proc.devRef .tc main_arg2) = _
  after_results_simp <;> rfl
theorem A_arg3 : W1 m ρ c (Proc.devRef .tc main_arg3) = (m ((c : Thread nD τ).loc main_arg3)) := by
  show StableHlo.after hostOps0 (W0 m ρ c) (Proc.devRef .tc main_arg3) = _
  after_results_simp <;> rfl
theorem A_arg4 : W1 m ρ c (Proc.devRef .tc main_arg4) = (m ((c : Thread nD τ).loc main_arg4)) := by
  show StableHlo.after hostOps0 (W0 m ρ c) (Proc.devRef .tc main_arg4) = _
  after_results_simp <;> rfl
theorem A_arg5 : W1 m ρ c (Proc.devRef .tc main_arg5) = (m ((c : Thread nD τ).loc main_arg5)) := by
  show StableHlo.after hostOps0 (W0 m ρ c) (Proc.devRef .tc main_arg5) = _
  after_results_simp <;> rfl
theorem A_arg6 : W1 m ρ c (Proc.devRef .tc main_arg6) = (m ((c : Thread nD τ).loc main_arg6)) := by
  show StableHlo.after hostOps0 (W0 m ρ c) (Proc.devRef .tc main_arg6) = _
  after_results_simp <;> rfl
theorem A_arg7 : W1 m ρ c (Proc.devRef .tc main_arg7) = (m ((c : Thread nD τ).loc main_arg7)) := by
  show StableHlo.after hostOps0 (W0 m ρ c) (Proc.devRef .tc main_arg7) = _
  after_results_simp <;> rfl

/-! ## After the first region -/

theorem B_v27 : W2 m ρ c (Proc.devRef .tc main_v27) = val_main_v4 (F := Ideal) (m ((c : Thread nD τ).loc main_arg0)) (m ((c : Thread nD τ).loc main_arg2)) := by
  refine (show W2 m ρ c (Proc.devRef .tc main_v27) = (dat0 (V1 m ρ) c).arrAt 2 cfg0.N from W2_arr m ρ c 2).trans ?_
  rw [Region0.arr_eq (V1 m ρ) c, Cert.ReferenceIdeal.Stages.v4_eq]
  show layer1 (W1 m ρ c (Proc.devRef .tc main_arg0)) (W1 m ρ c (Proc.devRef .tc main_arg2)) = _
  rw [A_arg0, A_arg2]
theorem B_v1 : W2 m ρ c (Proc.devRef .tc main_v1) = val_main_v1 (F := Ideal) (m ((c : Thread nD τ).loc main_arg1)) :=
  (W2_of_ne m ρ c main_v1 (by decide)).trans (A_v1 m ρ c)
theorem B_v3 : W2 m ρ c (Proc.devRef .tc main_v3) = val_main_v3 (F := Ideal) (m ((c : Thread nD τ).loc main_arg1)) :=
  (W2_of_ne m ρ c main_v3 (by decide)).trans (A_v3 m ρ c)
theorem B_v25 : W2 m ρ c (Proc.devRef .tc main_v25) = val_main_v26 (F := Ideal) (m ((c : Thread nD τ).loc main_arg1)) :=
  (W2_of_ne m ρ c main_v25 (by decide)).trans (A_v25 m ρ c)
theorem B_v26 : W2 m ρ c (Proc.devRef .tc main_v26) = val_main_v40 (F := Ideal) (m ((c : Thread nD τ).loc main_arg1)) :=
  (W2_of_ne m ρ c main_v26 (by decide)).trans (A_v26 m ρ c)
theorem B_arg3 : W2 m ρ c (Proc.devRef .tc main_arg3) = (m ((c : Thread nD τ).loc main_arg3)) :=
  (W2_of_ne m ρ c main_arg3 (by decide)).trans (A_arg3 m ρ c)
theorem B_arg4 : W2 m ρ c (Proc.devRef .tc main_arg4) = (m ((c : Thread nD τ).loc main_arg4)) :=
  (W2_of_ne m ρ c main_arg4 (by decide)).trans (A_arg4 m ρ c)
theorem B_arg5 : W2 m ρ c (Proc.devRef .tc main_arg5) = (m ((c : Thread nD τ).loc main_arg5)) :=
  (W2_of_ne m ρ c main_arg5 (by decide)).trans (A_arg5 m ρ c)
theorem B_arg6 : W2 m ρ c (Proc.devRef .tc main_arg6) = (m ((c : Thread nD τ).loc main_arg6)) :=
  (W2_of_ne m ρ c main_arg6 (by decide)).trans (A_arg6 m ρ c)
theorem B_arg7 : W2 m ρ c (Proc.devRef .tc main_arg7) = (m ((c : Thread nD τ).loc main_arg7)) :=
  (W2_of_ne m ρ c main_arg7 (by decide)).trans (A_arg7 m ρ c)

/-! ## After the second stretch -/

theorem C_v44 : W3 m ρ c (Proc.devRef .tc main_v44) = val_main_v44 (F := Ideal) (m ((c : Thread nD τ).loc main_arg0)) (m ((c : Thread nD τ).loc main_arg1)) (m ((c : Thread nD τ).loc main_arg2)) := by
  show StableHlo.after hostOps1 (W2 m ρ c) (Proc.devRef .tc main_v44) = _
  after_results_simp
  rw [B_v27, B_v1, B_v3, B_v25, B_v26]
  rfl
theorem C_v45 : W3 m ρ c (Proc.devRef .tc main_v45) = shapeCast S1x64 (m ((c : Thread nD τ).loc main_arg3)) shapeCasts_S64_S1x64 := by
  show StableHlo.after hostOps1 (W2 m ρ c) (Proc.devRef .tc main_v45) = _
  after_results_simp
  rw [B_arg3]
  rfl
theorem C_v1 : W3 m ρ c (Proc.devRef .tc main_v1) = val_main_v1 (F := Ideal) (m ((c : Thread nD τ).loc main_arg1)) := by
  show StableHlo.after hostOps1 (W2 m ρ c) (Proc.devRef .tc main_v1) = _
  after_results_simp <;> exact B_v1 m ρ c
theorem C_v3 : W3 m ρ c (Proc.devRef .tc main_v3) = val_main_v3 (F := Ideal) (m ((c : Thread nD τ).loc main_arg1)) := by
  show StableHlo.after hostOps1 (W2 m ρ c) (Proc.devRef .tc main_v3) = _
  after_results_simp <;> exact B_v3 m ρ c
theorem C_v25 : W3 m ρ c (Proc.devRef .tc main_v25) = val_main_v26 (F := Ideal) (m ((c : Thread nD τ).loc main_arg1)) := by
  show StableHlo.after hostOps1 (W2 m ρ c) (Proc.devRef .tc main_v25) = _
  after_results_simp <;> exact B_v25 m ρ c
theorem C_v26 : W3 m ρ c (Proc.devRef .tc main_v26) = val_main_v40 (F := Ideal) (m ((c : Thread nD τ).loc main_arg1)) := by
  show StableHlo.after hostOps1 (W2 m ρ c) (Proc.devRef .tc main_v26) = _
  after_results_simp <;> exact B_v26 m ρ c
theorem C_arg4 : W3 m ρ c (Proc.devRef .tc main_arg4) = (m ((c : Thread nD τ).loc main_arg4)) := by
  show StableHlo.after hostOps1 (W2 m ρ c) (Proc.devRef .tc main_arg4) = _
  after_results_simp <;> exact B_arg4 m ρ c
theorem C_arg5 : W3 m ρ c (Proc.devRef .tc main_arg5) = (m ((c : Thread nD τ).loc main_arg5)) := by
  show StableHlo.after hostOps1 (W2 m ρ c) (Proc.devRef .tc main_arg5) = _
  after_results_simp <;> exact B_arg5 m ρ c
theorem C_arg6 : W3 m ρ c (Proc.devRef .tc main_arg6) = (m ((c : Thread nD τ).loc main_arg6)) := by
  show StableHlo.after hostOps1 (W2 m ρ c) (Proc.devRef .tc main_arg6) = _
  after_results_simp <;> exact B_arg6 m ρ c
theorem C_arg7 : W3 m ρ c (Proc.devRef .tc main_arg7) = (m ((c : Thread nD τ).loc main_arg7)) := by
  show StableHlo.after hostOps1 (W2 m ρ c) (Proc.devRef .tc main_arg7) = _
  after_results_simp <;> exact B_arg7 m ρ c

/-! ## After the second region -/

theorem D_v46 : W4 m ρ c (Proc.devRef .tc main_v46) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (show W4 m ρ c (Proc.devRef .tc main_v46) = (dat1 (V3 m ρ) c).arrAt 3 cfg1.N from W4_arr m ρ c 3).trans ?_
  rw [Region1.arr_eq (V3 m ρ) c, Cert.ReferenceIdeal.Stages.v49_eq]
  show layer2Row (W3 m ρ c (Proc.devRef .tc main_v44)) (W3 m ρ c (Proc.devRef .tc main_v45)) (W3 m ρ c (Proc.devRef .tc main_arg4)) = _
  rw [C_v44, C_v45, C_arg4]
  exact layer2Row_cast _ _ _ _
theorem D_v1 : W4 m ρ c (Proc.devRef .tc main_v1) = val_main_v1 (F := Ideal) (m ((c : Thread nD τ).loc main_arg1)) :=
  (W4_of_ne m ρ c main_v1 (by decide)).trans (C_v1 m ρ c)
theorem D_v3 : W4 m ρ c (Proc.devRef .tc main_v3) = val_main_v3 (F := Ideal) (m ((c : Thread nD τ).loc main_arg1)) :=
  (W4_of_ne m ρ c main_v3 (by decide)).trans (C_v3 m ρ c)
theorem D_v25 : W4 m ρ c (Proc.devRef .tc main_v25) = val_main_v26 (F := Ideal) (m ((c : Thread nD τ).loc main_arg1)) :=
  (W4_of_ne m ρ c main_v25 (by decide)).trans (C_v25 m ρ c)
theorem D_v26 : W4 m ρ c (Proc.devRef .tc main_v26) = val_main_v40 (F := Ideal) (m ((c : Thread nD τ).loc main_arg1)) :=
  (W4_of_ne m ρ c main_v26 (by decide)).trans (C_v26 m ρ c)
theorem D_arg5 : W4 m ρ c (Proc.devRef .tc main_arg5) = (m ((c : Thread nD τ).loc main_arg5)) :=
  (W4_of_ne m ρ c main_arg5 (by decide)).trans (C_arg5 m ρ c)
theorem D_arg6 : W4 m ρ c (Proc.devRef .tc main_arg6) = (m ((c : Thread nD τ).loc main_arg6)) :=
  (W4_of_ne m ρ c main_arg6 (by decide)).trans (C_arg6 m ρ c)
theorem D_arg7 : W4 m ρ c (Proc.devRef .tc main_arg7) = (m ((c : Thread nD τ).loc main_arg7)) :=
  (W4_of_ne m ρ c main_arg7 (by decide)).trans (C_arg7 m ρ c)

/-! ## After the third stretch -/

theorem E_v63 : W5 m ρ c (Proc.devRef .tc main_v63) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v63) = _
  after_results_simp
  rw [D_v46, D_v1, D_v3, D_v25, D_v26]
  rfl
theorem E_v64 : W5 m ρ c (Proc.devRef .tc main_v64) = shapeCast S1x64 (m ((c : Thread nD τ).loc main_arg5)) shapeCasts_S64_S1x64 := by
  show StableHlo.after hostOps2 (W4 m ρ c) (Proc.devRef .tc main_v64) = _
  after_results_simp
  rw [D_arg5]
  rfl
theorem E_v65 : W5 m ρ c (Proc.devRef .tc main_v65) = shapeCast S1x64 (m ((c : Thread nD τ).loc main_arg7)) shapeCasts_S64_S1x64 := by
  show StableHlo.after hostOps2 (W4 m ρ c) (Proc.devRef .tc main_v65) = _
  after_results_simp
  rw [D_arg7]
  rfl
theorem E_arg6 : W5 m ρ c (Proc.devRef .tc main_arg6) = (m ((c : Thread nD τ).loc main_arg6)) := by
  show StableHlo.after hostOps2 (W4 m ρ c) (Proc.devRef .tc main_arg6) = _
  after_results_simp <;> exact D_arg6 m ρ c

/-! ## After the third region, and the transpose -/

theorem F_v66 : W6 m ρ c (Proc.devRef .tc main_v66) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (show W6 m ρ c (Proc.devRef .tc main_v66) = (dat2 (V5 m ρ) c).arrAt 4 cfg2.N from W6_arr m ρ c 4).trans ?_
  rw [Region2.arr_eq (V5 m ρ) c, Cert.ReferenceIdeal.Stages.v103_eq]
  show layer3Row (W5 m ρ c (Proc.devRef .tc main_v63)) (W5 m ρ c (Proc.devRef .tc main_v64)) (W5 m ρ c (Proc.devRef .tc main_arg6))
    (W5 m ρ c (Proc.devRef .tc main_v65)) = _
  rw [E_v63, E_v64, E_arg6, E_v65]
  exact layer3Row_cast _ _ _ _ _ _

/-- The result buffer after the whole fold is the reference's last stage of the launch contents. -/
theorem G_v67 : W7 m ρ c (Proc.devRef .tc main_v67) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v67) = _
  after_results_simp
  rw [F_v66]
  rfl

end Cert.KernelIdeal.Walk

end
-- ==== Proof.lean ====
/-
  The certificate: a two-layer graph convolution with a sigmoid read-out, three Pallas kernels against plain jnp.

  Both programs compute, from node features x [100000, 128], an edge list [2, 1600000] and weights W1, b1, W2, b2, Wl, bl,

      out = transpose (sigma (max (A (max (A (x · W1) + b1) 0 · W2) + b2) 0 · Wl + bl)),

  where A is the graph aggregation with self loops and symmetric degree normalisation: gather the rows at the edges'
  sources, scale by the per-edge normalisation, sum into the edges' destinations, add the rows scaled by the per-node
  normalisation.  The kernel program keeps the aggregation on the host, exactly as the reference spells it, and moves
  the three dense stages into kernels that work on blocks of 10000 rows: x · W1; the bias b1, max(·, 0) and · W2; the
  bias b2, max(·, 0), · Wl, the bias bl and the sigmoid.  On the extended reals rounding an operand to bf16 is the
  identity, a product into a zero accumulator is the host's product (both are the sum over the contracted index), the
  kernel's sigmoid is the host's 1 / (1 + exp (−y)), and ten row blocks tile the 100000 rows: so each kernel region
  leaves in its result array the very stage the reference computes, and the host operations between the regions are
  the reference's own.  The reference recomputes the degree normalisation for its second layer from the same edge
  list; it is the same function of the edge list.  No step uses finiteness of the inputs.

  The frames of the two kernel programs are the generated frame certificates; the reference's frame is its generated
  run with the result dropped.  The idealization rewrote nothing, so `preserves` is `True`.
-/
import proofs.«103817_j9431748182670_1_alg».proof.Defs
import proofs.«103817_j9431748182670_1_alg».proof.Proof.Gen.Kernel
import proofs.«103817_j9431748182670_1_alg».proof.Proof.Gen.Kernel.Skeleton
import proofs.«103817_j9431748182670_1_alg».proof.Proof.Gen.Kernel.Launch
import proofs.«103817_j9431748182670_1_alg».proof.Proof.Gen.Kernel.Points
import proofs.«103817_j9431748182670_1_alg».proof.Proof.Gen.Kernel.Frame
import proofs.«103817_j9431748182670_1_alg».proof.Proof.Gen.KernelIdeal
import proofs.«103817_j9431748182670_1_alg».proof.Proof.Gen.KernelIdeal.Skeleton
import proofs.«103817_j9431748182670_1_alg».proof.Proof.Gen.KernelIdeal.Launch
import proofs.«103817_j9431748182670_1_alg».proof.Proof.Gen.KernelIdeal.Points
import proofs.«103817_j9431748182670_1_alg».proof.Proof.Gen.KernelIdeal.Frame
import proofs.«103817_j9431748182670_1_alg».proof.Proof.Gen.ReferenceIdeal
import proofs.«103817_j9431748182670_1_alg».proof.Proof.Gen.Pre_finite_inputs
import proofs.«103817_j9431748182670_1_alg».proof.Proof.Gen.ReferenceIdeal.Run
import proofs.«103817_j9431748182670_1_alg».proof.Proof.Gen.ReferenceIdeal.Read
import proofs.«103817_j9431748182670_1_alg».proof.Proof.RunAll
import proofs.«103817_j9431748182670_1_alg».proof.Proof.Walk
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel program's run, read: the result buffer ends at the reference's last stage of the launch
    contents of the arguments, and the arguments end as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v67)
        = Cert.ReferenceIdeal.Read.val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run (Cert.KernelIdeal.defs (F := Ideal)) _ _).mono (fun r h c =>
    ⟨(h c _ (Cert.KernelIdeal.Gen.mem_uc Cert.KernelIdeal.main_v67 (by decide))).trans (Cert.KernelIdeal.Walk.G_v67 m ρ c),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c)⟩)
    (Cert.KernelIdeal.Whole.run_all m ρ)

/-- From memories agreeing on the arguments both idealized programs end with the same result: the reference's last
    stage of the arguments. -/
theorem algebraic : Cert.algebraic_KernelIdeal_ReferenceIdeal := by
  intro m ρ m' ρ' _ hagree
  refine ⟨fun c => Cert.ReferenceIdeal.Read.val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), kernel_run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v104_eq]
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
